-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1000 : Shape := ⟨2, ![16384, 1000]⟩
abbrev S128x1000 : Shape := ⟨2, ![128, 1000]⟩
abbrev S_ : Shape := ⟨0, ![]⟩

class Facts : Prop where
  bcast_S_S16384x1000 : S_.BroadcastsInDim S16384x1000 (![] : Fin 0 → Fin S16384x1000.rank)
  reducesTo_S16384x1000_S_d0_1 : S16384x1000.ReducesTo [0, 1] S_
  h_S_ : 0 < S_.numel
  bcast_S_S128x1000 : S_.BroadcastsInDim S128x1000 (![] : Fin 0 → Fin S128x1000.rank)
  reducesTo_S128x1000_S_d0_1 : S128x1000.ReducesTo [0, 1] S_

variable [Facts]

def fn {F : FTy → Type} [FloatOps F] (main_arg0 : FVec F S16384x1000 .f32) (main_arg1 : FVec F S128x1000 .f32) : IVec S_ 1 :=
  let main_v0 : FVec F S16384x1000 .f32 := Host.absf main_arg0
  let main_cst : FVec F S_ .f32 := constant S_ .f32 0x7F800000#32
  let main_v1 : FVec F S16384x1000 .f32 := broadcastInDim S16384x1000 ![] bcast_S_S16384x1000 main_cst
  let main_v2 : IVec S16384x1000 1 := cmpf .olt main_v0 main_v1
  let main_c : IVec S_ 1 := constantI S_ 1 1#1
  let main_v3 : IVec S_ 1 := (fun x v => Host.reduce IntOp.andi x v reducesTo_S16384x1000_S_d0_1 h_S_) main_v2 main_c
  let main_v4 : FVec F S128x1000 .f32 := Host.absf main_arg1
  let main_cst_0 : FVec F S_ .f32 := constant S_ .f32 0x7F800000#32
  let main_v5 : FVec F S128x1000 .f32 := broadcastInDim S128x1000 ![] bcast_S_S128x1000 main_cst_0
  let main_v6 : IVec S128x1000 1 := cmpf .olt main_v4 main_v5
  let main_c_1 : IVec S_ 1 := constantI S_ 1 1#1
  let main_v7 : IVec S_ 1 := (fun x v => Host.reduce IntOp.andi x v reducesTo_S128x1000_S_d0_1 h_S_) main_v6 main_c_1
  let main_v8 : IVec S_ 1 := andi main_v3 main_v7
  main_v8
-- ==== Kernel.lean ====
abbrev S16384x1000 : Shape := ⟨2, ![16384, 1000]⟩
abbrev S128x1000 : Shape := ⟨2, ![128, 1000]⟩
abbrev S1000x16384 : Shape := ⟨2, ![1000, 16384]⟩
abbrev S1000x128 : Shape := ⟨2, ![1000, 128]⟩
abbrev S16384x128 : Shape := ⟨2, ![16384, 128]⟩
abbrev S200x8192 : Shape := ⟨2, ![200, 8192]⟩
abbrev S200x128 : Shape := ⟨2, ![200, 128]⟩
abbrev S8192x128 : Shape := ⟨2, ![8192, 128]⟩

abbrev nBuf : Space → Nat
  | .hbm => 5
  | .vmem => 6
  | .smem => 0
  | _ => 0

abbrev bufTy : (tb : Table) → Fin (tcTables nBuf tb) → BufTy
  | .hbm, ⟨0, _⟩ => ⟨S16384x1000, .f32⟩
  | .hbm, ⟨1, _⟩ => ⟨S128x1000, .f32⟩
  | .hbm, ⟨2, _⟩ => ⟨S1000x16384, .f32⟩
  | .hbm, ⟨3, _⟩ => ⟨S1000x128, .f32⟩
  | .hbm, ⟨4, _⟩ => ⟨S16384x128, .f32⟩
  | .local _ .vmem, ⟨0, _⟩ => ⟨S200x8192, .f32⟩
  | .local _ .vmem, ⟨1, _⟩ => ⟨S200x8192, .f32⟩
  | .local _ .vmem, ⟨2, _⟩ => ⟨S200x128, .f32⟩
  | .local _ .vmem, ⟨3, _⟩ => ⟨S200x128, .f32⟩
  | .local _ .vmem, ⟨4, _⟩ => ⟨S8192x128, .f32⟩
  | .local _ .vmem, ⟨5, _⟩ => ⟨S8192x128, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 5], ![false, false]⟩

def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v6 : BitVec 32 := Scalar.extui v5
  let c0_i32_3 : BitVec 32 := 0#32
  let v7 : BitVec 1 := Scalar.cmpi .ne v6 c0_i32_3
  v7

def k0_cond2 (i : grid0.Coords) : BitVec 1 :=
  let arg1 : BitVec 32 := BitVec.ofNat 32 (i 1).val
  let c0_i32_4 : BitVec 32 := 0#32
  let v8 : BitVec 1 := Scalar.cmpi .sgt arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S200x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S16384x1000_S1000x16384_1_0 : S16384x1000.Transposes [1, 0] S1000x16384
  transposes_S128x1000_S1000x128_1_0 : S128x1000.Transposes [1, 0] S1000x128
  inb_S200x8192_S200x8192_0_0 : ∀ a, (![0, 0] : Fin 2 → Nat) a + S200x8192.size a ≤ S200x8192.size a
  h_S200x8192 : 0 < S200x8192.numel
  shapeCasts_S200x8192_S200x8192 : S200x8192.ShapeCasts S200x8192
  inb_S200x128_S200x128_0_0 : ∀ a, (![0, 0] : Fin 2 → Nat) a + S200x128.size a ≤ S200x128.size a
  h_S200x128 : 0 < S200x128.numel
  shapeCasts_S200x128_S200x128 : S200x128.ShapeCasts S200x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  dot_S200x8192_S200x128_S8192x128_0_0_1_1_n_n_wf : DotDims.WF S200x8192 S200x128 S8192x128 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x8192.size a ≤ S1000x16384.size a
  hwx0_0 : ∀ i : grid0.Coords, EltTy.bits .f32 = 32 ∨ (Rect.block (s := S1000x16384) S200x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x128.size a ≤ S1000x128.size a
  hwx0_1 : ∀ i : grid0.Coords, EltTy.bits .f32 = 32 ∨ (Rect.block (s := S1000x128) S200x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S16384x128.size a
  hwx0_2 : ∀ i : grid0.Coords, EltTy.bits .f32 = 32 ∨ (Rect.block (s := S16384x128) S8192x128.size (cc0_transform_2 i) (hinb0_2 i)).WholeWords (EltTy.packing .f32)

variable [Facts₀]

def dot_S200x8192_S200x128_S8192x128_0_0_1_1_n_n : DotDims S200x8192 S200x128 S8192x128 where
  lhsContracting := [0]
  rhsContracting := [0]
  lhsNonContracting := [1]
  rhsNonContracting := [1]
  lhsBatch := []
  rhsBatch := []
  wf := dot_S200x8192_S200x128_S8192x128_0_0_1_1_n_n_wf

abbrev win0_0 : Pipeline.Window sig grid0 :=
  Pipeline.Window.ofSpec (Memref.whole main_call0_v0) S200x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S16384x1000 : Shape := ⟨2, ![16384, 1000]⟩
abbrev S128x1000 : Shape := ⟨2, ![128, 1000]⟩
abbrev S1000x128 : Shape := ⟨2, ![1000, 128]⟩
abbrev S16384x128 : Shape := ⟨2, ![16384, 128]⟩

abbrev nBuf : Space → Nat
  | .hbm => 4
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S128x1000, .f32⟩
  | .hbm, ⟨2, _⟩ => ⟨S1000x128, .f32⟩
  | .hbm, ⟨3, _⟩ => ⟨S16384x128, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S128x1000_S1000x128_1_0 : S128x1000.Transposes [1, 0] S1000x128
  dot_S16384x1000_S1000x128_S16384x128_1_0_0_1_n_n_wf : DotDims.WF S16384x1000 S1000x128 S16384x128 [1] [0] [0] [1] [] []

variable [Facts₀]

def dot_S16384x1000_S1000x128_S16384x128_1_0_0_1_n_n : DotDims S16384x1000 S1000x128 S16384x128 where
  lhsContracting := [1]
  rhsContracting := [0]
  lhsNonContracting := [0]
  rhsNonContracting := [1]
  lhsBatch := []
  rhsBatch := []
  wf := dot_S16384x1000_S1000x128_S16384x128_1_0_0_1_n_n_wf

class Facts : Prop extends Facts₀ where

variable [Facts]
-- ==== Proof.KernelRuns.lean ====
/-
  The body of the K-slab matmul kernel, point by point, and the frame run it gives.

  The grid is (2, 5): point `t` is batch half `t / 5` and K slab `t % 5`. At every point the body loads the slab of
  `xᵀ` (200 × 8192) and of `Wᵀ` (200 × 128) and forms their product contracted over the 200 slab rows (8192 × 128).
  At the first slab of a half (`t % 5 = 0`) it stores that product over the whole output block; at every later slab it
  loads the output block, adds the product and stores the sum back. The output block's index is the half alone, so its
  staging buffer is written back only after the last slab (`t % 5 = 4`) and carries the running sum between.

  Two runs of the body cover the ten points: the first slab (the first branch taken, the second not) and a later slab
  (the reverse). Each run leaves in the output's staging buffer ONE whole-block store; what that store holds is read
  back as a value (`firstLeaves`, `laterLeaves`): the product, or the block found plus the product. `acc` is the
  running contents by recursion on the point, and the proof data names it as what the body leaves.
-/
import proofs.«168782_g50440095924883_cont_8to1_c_133_13_alg».proof.Proof.Gen.Kernel.Frame
import proofs.«168782_g50440095924883_cont_8to1_c_133_13_alg».proof.Proof.Gen.Kernel.Skeleton
import Idealize.ShloMosaic.Lib.Pipeline.Value

set_option maxRecDepth 16384

noncomputable section

namespace Cert.Kernel.Slabs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branch a point takes -/

/-- The first branch (`j == 0`) is taken exactly at the first slab of a half. -/
theorem first_iff : ∀ t : Fin cfg0.N, k0_cond1 (grid0.coords t) = 1#1 ↔ t.val % 5 = 0 :=
  (by decide +kernel : ∀ t : Fin grid0.N, k0_cond1 (grid0.coords t) = 1#1 ↔ t.val % 5 = 0)

/-- The second branch (`j > 0`) is taken exactly at the later slabs. -/
theorem later_iff : ∀ t : Fin cfg0.N, k0_cond2 (grid0.coords t) = 1#1 ↔ ¬t.val % 5 = 0 :=
  (by decide +kernel : ∀ t : Fin grid0.N, k0_cond2 (grid0.coords t) = 1#1 ↔ ¬t.val % 5 = 0)

/-- One of the two branches stores at every point: the output window is never idle. -/
theorem never_idle : ∀ i : grid0.Coords, cfg0.idle 2 i = false :=
  (by decide +kernel : ∀ i : grid0.Coords, idle0 2 i = false)

/-! ## The staging memrefs at a point -/

abbrev sx (t : Fin cfg0.N) : Memref sig .tc .vmem S200x8192 .f32 := win0_0.stage (cfg0.slots t 0)
abbrev hsx (t : Fin cfg0.N) : (sx t).IsWhole := hstage0_0 ((cfg0.slots t 0).cast nbuf0_0)
abbrev sw (t : Fin cfg0.N) : Memref sig .tc .vmem S200x128 .f32 := win0_1.stage (cfg0.slots t 1)
abbrev hsw (t : Fin cfg0.N) : (sw t).IsWhole := hstage0_1 ((cfg0.slots t 1).cast nbuf0_1)
abbrev so (t : Fin cfg0.N) : Memref sig .tc .vmem S8192x128 .f32 := win0_2.stage (cfg0.slots t 2)
abbrev hso (t : Fin cfg0.N) : (so t).IsWhole := hstage0_2 ((cfg0.slots t 2).cast nbuf0_2)

/-! ## The body's two runs -/

set_option maxHeartbeats 1000000 in
/-- THE FIRST SLAB. On whole staging memrefs — the two inputs' at their blocks, the output's at anything — the body
    runs to the continuation with the inputs as they were and the output's buffer overwritten by the pieces `L`, which
    the run itself finds (one store of the whole block). -/
noncomputable def runFirst (c : Dev nD) (i : grid0.Coords) (a2 : Memref sig .tc .vmem S200x8192 .f32) (h2 : a2.IsWhole)
    (a3 : Memref sig .tc .vmem S200x128 .f32) (h3 : a3.IsWhole) (a4 : Memref sig .tc .vmem S8192x128 .f32) (h4 : a4.IsWhole)
    (hc1 : k0_cond1 i = 1#1) (hc2 : ¬k0_cond2 i = 1#1) (x0 : Vec F S200x8192 .f32) (x1 : Vec F S200x128 .f32) :
    { L : List (View.Piece (Elt F) S8192x128 .f32) //
      ∀ (E : Set ℕ) (K : PUnit → sProp 𝕄),
        iprop(owns (c : Thread nD τ) a2 fullShare x0 ∗ owns (c : Thread nD τ) a3 fullShare x1 ∗ (∃ d, owns (c : Thread nD τ) a4 fullShare d)
            ∗ (iprop(owns (c : Thread nD τ) a2 fullShare x0 ∗ owns (c : Thread nD τ) a3 fullShare x1
                ∗ (∃ f, a4.view.loc (c : Thread nD τ) ↦[a4.view.set]{fullShare} a4.view.writes (Elt F) f L)) -∗ K ⟨⟩))
          ⊢ wp frame (wpE (defs₀ (F := F)) Variants.none c none) E (cc0__matmul_block i a2 h2 a3 h3 a4 h4) K } := by
  refine ⟨?_, fun E K => ?run⟩
  case run =>
    simp only [cc0__matmul_block_eq_skeleton]; unfold cc0__matmul_block_skel
    unfold owns
    iintro ⟨⟨%f0, %hf0, H0⟩, ⟨%f1, %hf1, H1⟩, ⟨%d2, %f2, -, H2⟩, Hk⟩
    obtain rfl := h2.eq_unread hf0; obtain rfl := h3.eq_unread hf1
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    iexists _; iexact H2

set_option maxHeartbeats 1000000 in
/-- A LATER SLAB. The same, the output's buffer now at the running contents `xo`, which the body loads. -/
noncomputable def runLater (c : Dev nD) (i : grid0.Coords) (a2 : Memref sig .tc .vmem S200x8192 .f32) (h2 : a2.IsWhole)
    (a3 : Memref sig .tc .vmem S200x128 .f32) (h3 : a3.IsWhole) (a4 : Memref sig .tc .vmem S8192x128 .f32) (h4 : a4.IsWhole)
    (hc1 : ¬k0_cond1 i = 1#1) (hc2 : k0_cond2 i = 1#1) (x0 : Vec F S200x8192 .f32) (x1 : Vec F S200x128 .f32) (xo : Vec F S8192x128 .f32) :
    { L : List (View.Piece (Elt F) S8192x128 .f32) //
      ∀ (E : Set ℕ) (K : PUnit → sProp 𝕄),
        iprop(owns (c : Thread nD τ) a2 fullShare x0 ∗ owns (c : Thread nD τ) a3 fullShare x1 ∗ owns (c : Thread nD τ) a4 fullShare xo
            ∗ (iprop(owns (c : Thread nD τ) a2 fullShare x0 ∗ owns (c : Thread nD τ) a3 fullShare x1
                ∗ (∃ f, a4.view.loc (c : Thread nD τ) ↦[a4.view.set]{fullShare} a4.view.writes (Elt F) f L)) -∗ K ⟨⟩))
          ⊢ wp frame (wpE (defs₀ (F := F)) Variants.none c none) E (cc0__matmul_block i a2 h2 a3 h3 a4 h4) K } := by
  refine ⟨?_, fun E K => ?run⟩
  case run =>
    simp only [cc0__matmul_block_eq_skeleton]; unfold cc0__matmul_block_skel
    unfold owns
    iintro ⟨⟨%f0, %hf0, H0⟩, ⟨%f1, %hf1, H1⟩, ⟨%f2, %hf2, H2⟩, Hk⟩
    obtain rfl := h2.eq_unread hf0; obtain rfl := h3.eq_unread hf1; obtain rfl := h4.eq_unread hf2
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    iexists _; iexact H2

end Cert.Kernel.Slabs

end
-- ==== Proof.KernelPoints.lean ====
/-
  The K-slab matmul kernel point by point: what its two runs leave, the running contents of the output block, the
  proof data over them, the body obligation, the frame run and the frame.

  `prod x w` is the slab product (`xᵀ` slab against `Wᵀ` slab, contracted over the 200 slab rows, into a zero
  accumulator). The first slab of a half leaves `prod x w` in the output's staging buffer; a later slab, finding `o`
  there, leaves `o + prod x w`. `acc n` is what the buffer holds after point `n`: by recursion, the first-slab value at
  `n % 5 = 0`, else the later-slab value over `acc (n - 1)` (the buffer is not written back in between: the write-back
  is at `n % 5 = 4` only, and the point after it is a first slab again).
-/
import proofs.«168782_g50440095924883_cont_8to1_c_133_13_alg».proof.Proof.KernelRuns

set_option maxRecDepth 16384

noncomputable section

namespace Cert.Kernel.Slabs

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero_offsets : (![0, 0] : Fin 2 → Nat) = fun _ => 0 := funext fun a => by fin_cases a <;> rfl

/-! ## What each run leaves in the output's staging buffer -/

/-- The first slab's one store is of the whole block. -/
theorem coverFirst (c : Dev nD) (i : grid0.Coords) (a2 : Memref sig .tc .vmem S200x8192 .f32) (h2 : a2.IsWhole)
    (a3 : Memref sig .tc .vmem S200x128 .f32) (h3 : a3.IsWhole) (a4 : Memref sig .tc .vmem S8192x128 .f32) (h4 : a4.IsWhole)
    (hc1 : k0_cond1 i = 1#1) (hc2 : ¬k0_cond2 i = 1#1) (x0 : Vec F S200x8192 .f32) (x1 : Vec F S200x128 .f32) (y : S8192x128.Idx) :
    ∃ pc ∈ (runFirst c i a2 h2 a3 h3 a4 h4 hc1 hc2 x0 x1).1, y ∈ pc.1.set :=
  View.cover_of_tiledL (runFirst c i a2 h2 a3 h3 a4 h4 hc1 hc2 x0 x1).1 S8192x128.size (by sl_kernel_rfl) y

/-- So is a later slab's. -/
theorem coverLater (c : Dev nD) (i : grid0.Coords) (a2 : Memref sig .tc .vmem S200x8192 .f32) (h2 : a2.IsWhole)
    (a3 : Memref sig .tc .vmem S200x128 .f32) (h3 : a3.IsWhole) (a4 : Memref sig .tc .vmem S8192x128 .f32) (h4 : a4.IsWhole)
    (hc1 : ¬k0_cond1 i = 1#1) (hc2 : k0_cond2 i = 1#1) (x0 : Vec F S200x8192 .f32) (x1 : Vec F S200x128 .f32) (xo : Vec F S8192x128 .f32)
    (y : S8192x128.Idx) :
    ∃ pc ∈ (runLater c i a2 h2 a3 h3 a4 h4 hc1 hc2 x0 x1 xo).1, y ∈ pc.1.set :=
  View.cover_of_tiledL (runLater c i a2 h2 a3 h3 a4 h4 hc1 hc2 x0 x1 xo).1 S8192x128.size (by sl_kernel_rfl) y

/-- THE FIRST SLAB leaves the slab product, whatever the buffer held. -/
theorem firstLeaves (c : Dev nD) (i : grid0.Coords) (a2 : Memref sig .tc .vmem S200x8192 .f32) (h2 : a2.IsWhole)
    (a3 : Memref sig .tc .vmem S200x128 .f32) (h3 : a3.IsWhole) (a4 : Memref sig .tc .vmem S8192x128 .f32) (h4 : a4.IsWhole)
    (hc1 : k0_cond1 i = 1#1) (hc2 : ¬k0_cond2 i = 1#1) (x0 : Vec F S200x8192 .f32) (x1 : Vec F S200x128 .f32)
    (f : a4.view.ty.Contents (Elt F)) :
    a4.view.read (Elt F) (a4.view.writes (Elt F) f (runFirst c i a2 h2 a3 h3 a4 h4 hc1 hc2 x0 x1).1) = k0_pay1 x0 x1 := by
  rw [View.read_writes_eq_canon _ _ _ (coverFirst c i a2 h2 a3 h3 a4 h4 hc1 hc2 x0 x1)]
  unfold runFirst
  dsimp only
  rw [View.canon_unit_zero zero_offsets]
  simp only [View.readAt_eq_ld, h2.read_unread, h3.read_unread, View.ld_unit_zero (S := S200x8192) zero_offsets,
    View.ld_unit_zero (S := S200x128) zero_offsets]

/-- A LATER SLAB, finding `xo`, leaves `xo` plus the slab product. -/
theorem laterLeaves (c : Dev nD) (i : grid0.Coords) (a2 : Memref sig .tc .vmem S200x8192 .f32) (h2 : a2.IsWhole)
    (a3 : Memref sig .tc .vmem S200x128 .f32) (h3 : a3.IsWhole) (a4 : Memref sig .tc .vmem S8192x128 .f32) (h4 : a4.IsWhole)
    (hc1 : ¬k0_cond1 i = 1#1) (hc2 : k0_cond2 i = 1#1) (x0 : Vec F S200x8192 .f32) (x1 : Vec F S200x128 .f32) (xo : Vec F S8192x128 .f32)
    (f : a4.view.ty.Contents (Elt F)) :
    a4.view.read (Elt F) (a4.view.writes (Elt F) f (runLater c i a2 h2 a3 h3 a4 h4 hc1 hc2 x0 x1 xo).1) = k0_pay2 x0 x1 xo := by
  rw [View.read_writes_eq_canon _ _ _ (coverLater c i a2 h2 a3 h3 a4 h4 hc1 hc2 x0 x1 xo)]
  unfold runLater
  dsimp only
  rw [View.canon_unit_zero zero_offsets]
  simp only [View.readAt_eq_ld, h2.read_unread, h3.read_unread, h4.read_unread, View.ld_unit_zero (S := S200x8192) zero_offsets,
    View.ld_unit_zero (S := S200x128) zero_offsets, View.ld_unit_zero (S := S8192x128) zero_offsets]

/-! ## The running contents of the output block -/

/-- What the output's staging buffer holds after the body at point `n`. -/
def acc (c : Dev nD) : (n : ℕ) → n < cfg0.N → Vec F S8192x128 .f32
  | 0, hn => k0_pay1 (iblk m c 0 ⟨0, hn⟩) (iblk m c 1 ⟨0, hn⟩)
  | n + 1, hn =>
    if (n + 1) % 5 = 0 then k0_pay1 (iblk m c 0 ⟨n + 1, hn⟩) (iblk m c 1 ⟨n + 1, hn⟩)
    else k0_pay2 (iblk m c 0 ⟨n + 1, hn⟩) (iblk m c 1 ⟨n + 1, hn⟩) (acc c n (Nat.lt_of_succ_lt hn))

/-- At a first slab: the slab product. -/
theorem acc_first (c : Dev nD) (t : Fin cfg0.N) (h0 : t.val % 5 = 0) :
    acc m c t.val t.isLt = k0_pay1 (iblk m c 0 t) (iblk m c 1 t) := by
  obtain ⟨n, hn⟩ := t
  cases n with
  | zero => rfl
  | succ n => exact (if_pos h0).trans rfl

/-- At a later slab: what the point before left, plus the slab product. -/
theorem acc_later (c : Dev nD) (t : Fin cfg0.N) (h0 : ¬t.val % 5 = 0) :
    acc m c t.val t.isLt
      = k0_pay2 (iblk m c 0 t) (iblk m c 1 t) (acc m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The proof data -/

/-- The arrays as the region finds them; after the body each input's buffer at its block and the output's at the
    running contents; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) : (dats m 0 c).after 2 t = acc m c t.val t.isLt := by dsimp only [dats]

/-- Each input's staging buffer holds its block at every point. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d

/-- At a later slab the output's staging buffer holds what the body left at the point before: that point is in the same
    half and not its last slab, so the buffer was not written back in between. -/
theorem before_o_later (c : Dev nD) (t : Fin cfg0.N) (h0 : ¬t.val % 5 = 0) (d) :
    (dats m 0 c).before 2 t d = acc m c (t.val - 1) (Nat.lt_of_le_of_lt (Nat.sub_le _ _) t.isLt) := by
  have hN : t.val < 10 := lt_of_lt_of_eq t.isLt (show cfg0.N = 10 from N_0)
  rw [Dat.before_out_kept _ 2 rfl t (by omega) (Bool.eq_false_iff.mpr fun h => by have := (flush0_2 _).mp h; dsimp only at this; omega)
    never_idle (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (sx t) fullShare ((dats m 0 c).before 0 t d))
    ∗ (∃ d, owns (c : Thread nD τ) (sw t) fullShare ((dats m 0 c).before 1 t d))
    ∗ (∃ d, owns (c : Thread nD τ) (so t) fullShare ((dats m 0 c).before 2 t d)))

/-- what it returns of the output's buffer (the obligation's cases on idleness, which never holds), -/
def outPost (c : Dev nD) (t : Fin cfg0.N) : sProp 𝕄 :=
  match cfg0.idle 2 (cfg0.grid.coords t) with
  | true =>
    match (cfg0.win 2).flush t with
    | false => iprop(∃ d, owns (c : Thread nD τ) (so t) fullShare ((dats m 0 c).before 2 t d))
    | true => owns (c : Thread nD τ) (so t) fullShare ((dats m 0 c).after 2 t)
  | false => owns (c : Thread nD τ) (so t) fullShare ((dats m 0 c).after 2 t)

/-- and all it returns. -/
def bodyPost (c : Dev nD) (t : Fin cfg0.N) : sProp 𝕄 :=
  iprop((dats m 0 c).Φ t.succ ∗ (dats m 0 c).owesAt () t.succ
    ∗ owns (c : Thread nD τ) (sx t) fullShare ((dats m 0 c).after 0 t)
    ∗ owns (c : Thread nD τ) (sw t) fullShare ((dats m 0 c).after 1 t)
    ∗ outPost m c t)

set_option maxHeartbeats 800000 in
/-- The body at any point: the inputs' buffers hold their blocks; the point is a first slab or a later one; at a later
    one the output's buffer holds the running contents; the matching run applies and leaves the next running contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost outPost bodyAt0
  rw [never_idle]
  simp only [before_x, before_w]
  rw [show (dats m 0 c).Φ t.succ = (dats m 0 c).Φ t.castSucc from rfl,
    show (dats m 0 c).owesAt () t.succ = (dats m 0 c).owesAt () t.castSucc from rfl,
    after_x, after_w, after_o]
  by_cases h0 : t.val % 5 = 0
  · rw [acc_first m c t h0]
    iintro ⟨HΦ, Ho, ⟨%d0, H0⟩, ⟨%d1, H1⟩, ⟨%d2, H2⟩⟩
    iapply ((runFirst c (grid0.coords t) _ _ _ _ _ _ ((first_iff t).mpr h0) (fun h => (later_iff t).mp h h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact firstLeaves c _ _ _ _ _ _ _ _ _ _ _ _
  · rw [acc_later m c t h0]
    simp only [before_o_later m c t h0]
    iintro ⟨HΦ, Ho, ⟨%d0, H0⟩, ⟨%d1, H1⟩, ⟨%d2, H2⟩⟩
    iapply ((runLater c (grid0.coords t) _ _ _ _ _ _ (fun h => h0 ((first_iff t).mp h)) ((later_iff t).mpr h0) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact laterLeaves c _ _ _ _ _ _ _ _ _ _ _ _ _

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Slabs

end
-- ==== Proof.KernelIdealRuns.lean ====
/-
  The body of the K-slab matmul kernel, point by point, and the frame run it gives.

  The grid is (2, 5): point `t` is batch half `t / 5` and K slab `t % 5`. At every point the body loads the slab of
  `xᵀ` (200 × 8192) and of `Wᵀ` (200 × 128) and forms their product contracted over the 200 slab rows (8192 × 128).
  At the first slab of a half (`t % 5 = 0`) it stores that product over the whole output block; at every later slab it
  loads the output block, adds the product and stores the sum back. The output block's index is the half alone, so its
  staging buffer is written back only after the last slab (`t % 5 = 4`) and carries the running sum between.

  Two runs of the body cover the ten points: the first slab (the first branch taken, the second not) and a later slab
  (the reverse). Each run leaves in the output's staging buffer ONE whole-block store; what that store holds is read
  back as a value (`firstLeaves`, `laterLeaves`): the product, or the block found plus the product. `acc` is the
  running contents by recursion on the point, and the proof data names it as what the body leaves.
-/
import proofs.«168782_g50440095924883_cont_8to1_c_133_13_alg».proof.Proof.Gen.KernelIdeal.Frame
import proofs.«168782_g50440095924883_cont_8to1_c_133_13_alg».proof.Proof.Gen.KernelIdeal.Skeleton
import Idealize.ShloMosaic.Lib.Pipeline.Value

set_option maxRecDepth 16384

noncomputable section

namespace Cert.KernelIdeal.Slabs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Which branch a point takes -/

/-- The first branch (`j == 0`) is taken exactly at the first slab of a half. -/
theorem first_iff : ∀ t : Fin cfg0.N, k0_cond1 (grid0.coords t) = 1#1 ↔ t.val % 5 = 0 :=
  (by decide +kernel : ∀ t : Fin grid0.N, k0_cond1 (grid0.coords t) = 1#1 ↔ t.val % 5 = 0)

/-- The second branch (`j > 0`) is taken exactly at the later slabs. -/
theorem later_iff : ∀ t : Fin cfg0.N, k0_cond2 (grid0.coords t) = 1#1 ↔ ¬t.val % 5 = 0 :=
  (by decide +kernel : ∀ t : Fin grid0.N, k0_cond2 (grid0.coords t) = 1#1 ↔ ¬t.val % 5 = 0)

/-- One of the two branches stores at every point: the output window is never idle. -/
theorem never_idle : ∀ i : grid0.Coords, cfg0.idle 2 i = false :=
  (by decide +kernel : ∀ i : grid0.Coords, idle0 2 i = false)

/-! ## The staging memrefs at a point -/

abbrev sx (t : Fin cfg0.N) : Memref sig .tc .vmem S200x8192 .f32 := win0_0.stage (cfg0.slots t 0)
abbrev hsx (t : Fin cfg0.N) : (sx t).IsWhole := hstage0_0 ((cfg0.slots t 0).cast nbuf0_0)
abbrev sw (t : Fin cfg0.N) : Memref sig .tc .vmem S200x128 .f32 := win0_1.stage (cfg0.slots t 1)
abbrev hsw (t : Fin cfg0.N) : (sw t).IsWhole := hstage0_1 ((cfg0.slots t 1).cast nbuf0_1)
abbrev so (t : Fin cfg0.N) : Memref sig .tc .vmem S8192x128 .f32 := win0_2.stage (cfg0.slots t 2)
abbrev hso (t : Fin cfg0.N) : (so t).IsWhole := hstage0_2 ((cfg0.slots t 2).cast nbuf0_2)

/-! ## The body's two runs -/

set_option maxHeartbeats 1000000 in
/-- THE FIRST SLAB. On whole staging memrefs — the two inputs' at their blocks, the output's at anything — the body
    runs to the continuation with the inputs as they were and the output's buffer overwritten by the pieces `L`, which
    the run itself finds (one store of the whole block). -/
noncomputable def runFirst (c : Dev nD) (i : grid0.Coords) (a2 : Memref sig .tc .vmem S200x8192 .f32) (h2 : a2.IsWhole)
    (a3 : Memref sig .tc .vmem S200x128 .f32) (h3 : a3.IsWhole) (a4 : Memref sig .tc .vmem S8192x128 .f32) (h4 : a4.IsWhole)
    (hc1 : k0_cond1 i = 1#1) (hc2 : ¬k0_cond2 i = 1#1) (x0 : Vec F S200x8192 .f32) (x1 : Vec F S200x128 .f32) :
    { L : List (View.Piece (Elt F) S8192x128 .f32) //
      ∀ (E : Set ℕ) (K : PUnit → sProp 𝕄),
        iprop(owns (c : Thread nD τ) a2 fullShare x0 ∗ owns (c : Thread nD τ) a3 fullShare x1 ∗ (∃ d, owns (c : Thread nD τ) a4 fullShare d)
            ∗ (iprop(owns (c : Thread nD τ) a2 fullShare x0 ∗ owns (c : Thread nD τ) a3 fullShare x1
                ∗ (∃ f, a4.view.loc (c : Thread nD τ) ↦[a4.view.set]{fullShare} a4.view.writes (Elt F) f L)) -∗ K ⟨⟩))
          ⊢ wp frame (wpE (defs₀ (F := F)) Variants.none c none) E (cc0__matmul_block i a2 h2 a3 h3 a4 h4) K } := by
  refine ⟨?_, fun E K => ?run⟩
  case run =>
    simp only [cc0__matmul_block_eq_skeleton]; unfold cc0__matmul_block_skel
    unfold owns
    iintro ⟨⟨%f0, %hf0, H0⟩, ⟨%f1, %hf1, H1⟩, ⟨%d2, %f2, -, H2⟩, Hk⟩
    obtain rfl := h2.eq_unread hf0; obtain rfl := h3.eq_unread hf1
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    iexists _; iexact H2

set_option maxHeartbeats 1000000 in
/-- A LATER SLAB. The same, the output's buffer now at the running contents `xo`, which the body loads. -/
noncomputable def runLater (c : Dev nD) (i : grid0.Coords) (a2 : Memref sig .tc .vmem S200x8192 .f32) (h2 : a2.IsWhole)
    (a3 : Memref sig .tc .vmem S200x128 .f32) (h3 : a3.IsWhole) (a4 : Memref sig .tc .vmem S8192x128 .f32) (h4 : a4.IsWhole)
    (hc1 : ¬k0_cond1 i = 1#1) (hc2 : k0_cond2 i = 1#1) (x0 : Vec F S200x8192 .f32) (x1 : Vec F S200x128 .f32) (xo : Vec F S8192x128 .f32) :
    { L : List (View.Piece (Elt F) S8192x128 .f32) //
      ∀ (E : Set ℕ) (K : PUnit → sProp 𝕄),
        iprop(owns (c : Thread nD τ) a2 fullShare x0 ∗ owns (c : Thread nD τ) a3 fullShare x1 ∗ owns (c : Thread nD τ) a4 fullShare xo
            ∗ (iprop(owns (c : Thread nD τ) a2 fullShare x0 ∗ owns (c : Thread nD τ) a3 fullShare x1
                ∗ (∃ f, a4.view.loc (c : Thread nD τ) ↦[a4.view.set]{fullShare} a4.view.writes (Elt F) f L)) -∗ K ⟨⟩))
          ⊢ wp frame (wpE (defs₀ (F := F)) Variants.none c none) E (cc0__matmul_block i a2 h2 a3 h3 a4 h4) K } := by
  refine ⟨?_, fun E K => ?run⟩
  case run =>
    simp only [cc0__matmul_block_eq_skeleton]; unfold cc0__matmul_block_skel
    unfold owns
    iintro ⟨⟨%f0, %hf0, H0⟩, ⟨%f1, %hf1, H1⟩, ⟨%f2, %hf2, H2⟩, Hk⟩
    obtain rfl := h2.eq_unread hf0; obtain rfl := h3.eq_unread hf1; obtain rfl := h4.eq_unread hf2
    sl_exec (disch := first | exact hc1 | exact hc2)
    sl_step
    iapply Hk
    isplitl [H0]
    · iexists _; isplitr; · ipureintro; exact h2.read_unread _
      iexact H0
    isplitl [H1]
    · iexists _; isplitr; · ipureintro; exact h3.read_unread _
      iexact H1
    iexists _; iexact H2

end Cert.KernelIdeal.Slabs

end
-- ==== Proof.KernelIdealPoints.lean ====
/-
  The K-slab matmul kernel point by point: what its two runs leave, the running contents of the output block, the
  proof data over them, the body obligation, the frame run and the frame.

  `prod x w` is the slab product (`xᵀ` slab against `Wᵀ` slab, contracted over the 200 slab rows, into a zero
  accumulator). The first slab of a half leaves `prod x w` in the output's staging buffer; a later slab, finding `o`
  there, leaves `o + prod x w`. `acc n` is what the buffer holds after point `n`: by recursion, the first-slab value at
  `n % 5 = 0`, else the later-slab value over `acc (n - 1)` (the buffer is not written back in between: the write-back
  is at `n % 5 = 4` only, and the point after it is a first slab again).
-/
import proofs.«168782_g50440095924883_cont_8to1_c_133_13_alg».proof.Proof.KernelIdealRuns

set_option maxRecDepth 16384

noncomputable section

namespace Cert.KernelIdeal.Slabs

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem zero_offsets : (![0, 0] : Fin 2 → Nat) = fun _ => 0 := funext fun a => by fin_cases a <;> rfl

/-! ## What each run leaves in the output's staging buffer -/

/-- The first slab's one store is of the whole block. -/
theorem coverFirst (c : Dev nD) (i : grid0.Coords) (a2 : Memref sig .tc .vmem S200x8192 .f32) (h2 : a2.IsWhole)
    (a3 : Memref sig .tc .vmem S200x128 .f32) (h3 : a3.IsWhole) (a4 : Memref sig .tc .vmem S8192x128 .f32) (h4 : a4.IsWhole)
    (hc1 : k0_cond1 i = 1#1) (hc2 : ¬k0_cond2 i = 1#1) (x0 : Vec F S200x8192 .f32) (x1 : Vec F S200x128 .f32) (y : S8192x128.Idx) :
    ∃ pc ∈ (runFirst c i a2 h2 a3 h3 a4 h4 hc1 hc2 x0 x1).1, y ∈ pc.1.set :=
  View.cover_of_tiledL (runFirst c i a2 h2 a3 h3 a4 h4 hc1 hc2 x0 x1).1 S8192x128.size (by sl_kernel_rfl) y

/-- So is a later slab's. -/
theorem coverLater (c : Dev nD) (i : grid0.Coords) (a2 : Memref sig .tc .vmem S200x8192 .f32) (h2 : a2.IsWhole)
    (a3 : Memref sig .tc .vmem S200x128 .f32) (h3 : a3.IsWhole) (a4 : Memref sig .tc .vmem S8192x128 .f32) (h4 : a4.IsWhole)
    (hc1 : ¬k0_cond1 i = 1#1) (hc2 : k0_cond2 i = 1#1) (x0 : Vec F S200x8192 .f32) (x1 : Vec F S200x128 .f32) (xo : Vec F S8192x128 .f32)
    (y : S8192x128.Idx) :
    ∃ pc ∈ (runLater c i a2 h2 a3 h3 a4 h4 hc1 hc2 x0 x1 xo).1, y ∈ pc.1.set :=
  View.cover_of_tiledL (runLater c i a2 h2 a3 h3 a4 h4 hc1 hc2 x0 x1 xo).1 S8192x128.size (by sl_kernel_rfl) y

/-- THE FIRST SLAB leaves the slab product, whatever the buffer held. -/
theorem firstLeaves (c : Dev nD) (i : grid0.Coords) (a2 : Memref sig .tc .vmem S200x8192 .f32) (h2 : a2.IsWhole)
    (a3 : Memref sig .tc .vmem S200x128 .f32) (h3 : a3.IsWhole) (a4 : Memref sig .tc .vmem S8192x128 .f32) (h4 : a4.IsWhole)
    (hc1 : k0_cond1 i = 1#1) (hc2 : ¬k0_cond2 i = 1#1) (x0 : Vec F S200x8192 .f32) (x1 : Vec F S200x128 .f32)
    (f : a4.view.ty.Contents (Elt F)) :
    a4.view.read (Elt F) (a4.view.writes (Elt F) f (runFirst c i a2 h2 a3 h3 a4 h4 hc1 hc2 x0 x1).1) = k0_pay1 x0 x1 := by
  rw [View.read_writes_eq_canon _ _ _ (coverFirst c i a2 h2 a3 h3 a4 h4 hc1 hc2 x0 x1)]
  unfold runFirst
  dsimp only
  rw [View.canon_unit_zero zero_offsets]
  simp only [View.readAt_eq_ld, h2.read_unread, h3.read_unread, View.ld_unit_zero (S := S200x8192) zero_offsets,
    View.ld_unit_zero (S := S200x128) zero_offsets]

/-- A LATER SLAB, finding `xo`, leaves `xo` plus the slab product. -/
theorem laterLeaves (c : Dev nD) (i : grid0.Coords) (a2 : Memref sig .tc .vmem S200x8192 .f32) (h2 : a2.IsWhole)
    (a3 : Memref sig .tc .vmem S200x128 .f32) (h3 : a3.IsWhole) (a4 : Memref sig .tc .vmem S8192x128 .f32) (h4 : a4.IsWhole)
    (hc1 : ¬k0_cond1 i = 1#1) (hc2 : k0_cond2 i = 1#1) (x0 : Vec F S200x8192 .f32) (x1 : Vec F S200x128 .f32) (xo : Vec F S8192x128 .f32)
    (f : a4.view.ty.Contents (Elt F)) :
    a4.view.read (Elt F) (a4.view.writes (Elt F) f (runLater c i a2 h2 a3 h3 a4 h4 hc1 hc2 x0 x1 xo).1) = k0_pay2 x0 x1 xo := by
  rw [View.read_writes_eq_canon _ _ _ (coverLater c i a2 h2 a3 h3 a4 h4 hc1 hc2 x0 x1 xo)]
  unfold runLater
  dsimp only
  rw [View.canon_unit_zero zero_offsets]
  simp only [View.readAt_eq_ld, h2.read_unread, h3.read_unread, h4.read_unread, View.ld_unit_zero (S := S200x8192) zero_offsets,
    View.ld_unit_zero (S := S200x128) zero_offsets, View.ld_unit_zero (S := S8192x128) zero_offsets]

/-! ## The running contents of the output block -/

/-- What the output's staging buffer holds after the body at point `n`. -/
def acc (c : Dev nD) : (n : ℕ) → n < cfg0.N → Vec F S8192x128 .f32
  | 0, hn => k0_pay1 (iblk m c 0 ⟨0, hn⟩) (iblk m c 1 ⟨0, hn⟩)
  | n + 1, hn =>
    if (n + 1) % 5 = 0 then k0_pay1 (iblk m c 0 ⟨n + 1, hn⟩) (iblk m c 1 ⟨n + 1, hn⟩)
    else k0_pay2 (iblk m c 0 ⟨n + 1, hn⟩) (iblk m c 1 ⟨n + 1, hn⟩) (acc c n (Nat.lt_of_succ_lt hn))

/-- At a first slab: the slab product. -/
theorem acc_first (c : Dev nD) (t : Fin cfg0.N) (h0 : t.val % 5 = 0) :
    acc m c t.val t.isLt = k0_pay1 (iblk m c 0 t) (iblk m c 1 t) := by
  obtain ⟨n, hn⟩ := t
  cases n with
  | zero => rfl
  | succ n => exact (if_pos h0).trans rfl

/-- At a later slab: what the point before left, plus the slab product. -/
theorem acc_later (c : Dev nD) (t : Fin cfg0.N) (h0 : ¬t.val % 5 = 0) :
    acc m c t.val t.isLt
      = k0_pay2 (iblk m c 0 t) (iblk m c 1 t) (acc m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The proof data -/

/-- The arrays as the region finds them; after the body each input's buffer at its block and the output's at the
    running contents; the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => acc m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_x (c : Dev nD) (t : Fin cfg0.N) : (dats m 0 c).after 0 t = iblk m c 0 t := by dsimp only [dats]
theorem after_w (c : Dev nD) (t : Fin cfg0.N) : (dats m 0 c).after 1 t = iblk m c 1 t := by dsimp only [dats]
theorem after_o (c : Dev nD) (t : Fin cfg0.N) : (dats m 0 c).after 2 t = acc m c t.val t.isLt := by dsimp only [dats]

/-- Each input's staging buffer holds its block at every point. -/
theorem before_x (c : Dev nD) (t : Fin cfg0.N) (d) : (dats m 0 c).before 0 t d = iblk m c 0 t :=
  before0_0_of m (dats m 0 c) (A_eq m c 0) (after_x m c) t d
theorem before_w (c : Dev nD) (t : Fin cfg0.N) (d) : (dats m 0 c).before 1 t d = iblk m c 1 t :=
  before0_1_of m (dats m 0 c) (A_eq m c 1) (after_w m c) t d

/-- At a later slab the output's staging buffer holds what the body left at the point before: that point is in the same
    half and not its last slab, so the buffer was not written back in between. -/
theorem before_o_later (c : Dev nD) (t : Fin cfg0.N) (h0 : ¬t.val % 5 = 0) (d) :
    (dats m 0 c).before 2 t d = acc m c (t.val - 1) (Nat.lt_of_le_of_lt (Nat.sub_le _ _) t.isLt) := by
  have hN : t.val < 10 := lt_of_lt_of_eq t.isLt (show cfg0.N = 10 from N_0)
  rw [Dat.before_out_kept _ 2 rfl t (by omega) (Bool.eq_false_iff.mpr fun h => by have := (flush0_2 _).mp h; dsimp only at this; omega)
    never_idle (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (sx t) fullShare ((dats m 0 c).before 0 t d))
    ∗ (∃ d, owns (c : Thread nD τ) (sw t) fullShare ((dats m 0 c).before 1 t d))
    ∗ (∃ d, owns (c : Thread nD τ) (so t) fullShare ((dats m 0 c).before 2 t d)))

/-- what it returns of the output's buffer (the obligation's cases on idleness, which never holds), -/
def outPost (c : Dev nD) (t : Fin cfg0.N) : sProp 𝕄 :=
  match cfg0.idle 2 (cfg0.grid.coords t) with
  | true =>
    match (cfg0.win 2).flush t with
    | false => iprop(∃ d, owns (c : Thread nD τ) (so t) fullShare ((dats m 0 c).before 2 t d))
    | true => owns (c : Thread nD τ) (so t) fullShare ((dats m 0 c).after 2 t)
  | false => owns (c : Thread nD τ) (so t) fullShare ((dats m 0 c).after 2 t)

/-- and all it returns. -/
def bodyPost (c : Dev nD) (t : Fin cfg0.N) : sProp 𝕄 :=
  iprop((dats m 0 c).Φ t.succ ∗ (dats m 0 c).owesAt () t.succ
    ∗ owns (c : Thread nD τ) (sx t) fullShare ((dats m 0 c).after 0 t)
    ∗ owns (c : Thread nD τ) (sw t) fullShare ((dats m 0 c).after 1 t)
    ∗ outPost m c t)

set_option maxHeartbeats 800000 in
/-- The body at any point: the inputs' buffers hold their blocks; the point is a first slab or a later one; at a later
    one the output's buffer holds the running contents; the matching run applies and leaves the next running contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost outPost bodyAt0
  rw [never_idle]
  simp only [before_x, before_w]
  rw [show (dats m 0 c).Φ t.succ = (dats m 0 c).Φ t.castSucc from rfl,
    show (dats m 0 c).owesAt () t.succ = (dats m 0 c).owesAt () t.castSucc from rfl,
    after_x, after_w, after_o]
  by_cases h0 : t.val % 5 = 0
  · rw [acc_first m c t h0]
    iintro ⟨HΦ, Ho, ⟨%d0, H0⟩, ⟨%d1, H1⟩, ⟨%d2, H2⟩⟩
    iapply ((runFirst c (grid0.coords t) _ _ _ _ _ _ ((first_iff t).mpr h0) (fun h => (later_iff t).mp h h0) (iblk m c 0 t) (iblk m c 1 t)).2 Set.univ _)
    isplitl [H0]; · iexact H0
    isplitl [H1]; · iexact H1
    isplitl [H2]; · iexists _; iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact firstLeaves c _ _ _ _ _ _ _ _ _ _ _ _
  · rw [acc_later m c t h0]
    simp only [before_o_later m c t h0]
    iintro ⟨HΦ, Ho, ⟨%d0, H0⟩, ⟨%d1, H1⟩, ⟨%d2, H2⟩⟩
    iapply ((runLater c (grid0.coords t) _ _ _ _ _ _ (fun h => h0 ((first_iff t).mp h)) ((later_iff t).mpr h0) (iblk m c 0 t) (iblk m c 1 t) _).2 Set.univ _)
    isplitl [H0]; · iexact H0
    isplitl [H1]; · iexact H1
    isplitl [H2]; · iexact H2
    iintro ⟨H0, H1, ⟨%e2, H2⟩⟩
    isplitl [HΦ]; · iexact HΦ
    isplitl [Ho]; · iexact Ho
    isplitl [H0]; · iexact H0
    isplitl [H1]; · iexact H1
    unfold owns; iexists _; isplitr
    swap; · iexact H2
    ipureintro; exact laterLeaves c _ _ _ _ _ _ _ _ _ _ _ _ _

/-- The body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has every array of the pipeline at what the
    proof data computes and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: the program runs to the end, faults nowhere, and leaves its two argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Slabs

end
-- ==== Proof.SlabBlocks.lean ====
/-
  The input windows' blocks read at one element, in terms of the kernel's two argument arrays.

  The pallas_call's operands are the transposes `xᵀ` (1000 × 16384) and `Wᵀ` (1000 × 128), which two host operations
  write before the region. At grid point `t` (batch half `t / 5`, K slab `t % 5`) the first window's block is rows
  `200·(t % 5) …` and columns `8192·(t / 5) …` of `xᵀ`, the second's rows `200·(t % 5) …` of `Wᵀ`; the output's block is
  rows `8192·(t / 5) …` of the result. So element (k, p) of the `xᵀ` block is `x[8192·(t / 5) + p, 200·(t % 5) + k]`
  and element (k, q) of the `Wᵀ` block is `W[q, 200·(t % 5) + k]`.
-/
import proofs.«168782_g50440095924883_cont_8to1_c_133_13_alg».proof.Proof.KernelIdealPoints
import Idealize.ShloMosaic.Lib.Pipeline.Value
import Idealize.ShloMosaic.Lib.ValueIdx
import Idealize.ShloMosaic.Lib.StableHlo.Run

noncomputable section

namespace Cert.KernelIdeal.Slabs

open Cert.KernelIdeal Cert.KernelIdeal.Gen
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The windows' block indices at point `t`: slab and half for `xᵀ`, slab for `Wᵀ`, half for the result. -/
theorem block_indices : ∀ t : Fin cfg0.N,
    win0_0.index t (0 : Fin 2) = t.val % 5 ∧ win0_0.index t (1 : Fin 2) = t.val / 5
    ∧ win0_1.index t (0 : Fin 2) = t.val % 5 ∧ win0_1.index t (1 : Fin 2) = 0
    ∧ win0_2.index t (0 : Fin 2) = t.val / 5 ∧ win0_2.index t (1 : Fin 2) = 0 :=
  (by decide +kernel : ∀ t : Fin grid0.N, _)

/-- The region finds `xᵀ` in its first operand: the host's transpose of the first argument. -/
theorem V_xT (c : Dev nD) : (V m c main_call0_v0 : S1000x16384.Idx → Elt F .f32)
    = transpose S1000x16384 [1, 0] (m ((c : Thread nD τ).loc main_arg0)) transposes_S16384x1000_S1000x16384_1_0 := by
  dsimp only [Gen.V, Gen.hostOps0]; after_results; rfl

/-- and `Wᵀ` in its second: the host's transpose of the second argument. -/
theorem V_wT (c : Dev nD) : (V m c main_call0_v1 : S1000x128.Idx → Elt F .f32)
    = transpose S1000x128 [1, 0] (m ((c : Thread nD τ).loc main_arg1)) transposes_S128x1000_S1000x128_1_0 := by
  dsimp only [Gen.V, Gen.hostOps0]; after_results; rfl

/-- Element (k, p) of the `xᵀ` block at point `t` is `x[8192·(t / 5) + p, 200·(t % 5) + k]`. -/
theorem xblock_apply (c : Dev nD) (t : Fin cfg0.N) (k : Fin 200) (p : Fin 8192) (hb : 8192 * (t.val / 5) + p.val < 16384)
    (hk : 200 * (t.val % 5) + k.val < 1000) :
    (iblk m c 0 t : Vec F S200x8192 .f32) (ix2 k p)
      = m ((c : Thread nD τ).loc main_arg0) (ix2 (⟨8192 * (t.val / 5) + p.val, hb⟩ : Fin 16384) (⟨200 * (t.val % 5) + k.val, hk⟩ : Fin 1000)) := by
  obtain ⟨e0, e1, -, -, -, -⟩ := block_indices t
  unfold iblk
  rw [View.read_apply]
  show V m c main_call0_v0 (((cfg0.win 0).blk t).view.emb (ix2 k p)) = _
  rw [V_xT m c]
  refine transpose_apply [1, 0] _ transposes_S16384x1000_S1000x16384_1_0 _ _ (fun b => ?_)
  match b with
  | ⟨0, _⟩ => show 200 * (t.val % 5) + k.val = win0_0.index t (0 : Fin 2) * 200 + 1 * k.val; rw [e0]; omega
  | ⟨1, _⟩ => show 8192 * (t.val / 5) + p.val = win0_0.index t (1 : Fin 2) * 8192 + 1 * p.val; rw [e1]; omega

/-- Element (k, q) of the `Wᵀ` block at point `t` is `W[q, 200·(t % 5) + k]`. -/
theorem wblock_apply (c : Dev nD) (t : Fin cfg0.N) (k : Fin 200) (q : Fin 128) (hk : 200 * (t.val % 5) + k.val < 1000) :
    (iblk m c 1 t : Vec F S200x128 .f32) (ix2 k q)
      = m ((c : Thread nD τ).loc main_arg1) (ix2 q (⟨200 * (t.val % 5) + k.val, hk⟩ : Fin 1000)) := by
  obtain ⟨-, -, e0, e1, -, -⟩ := block_indices t
  unfold iblk
  rw [View.read_apply]
  show V m c main_call0_v1 (((cfg0.win 1).blk t).view.emb (ix2 k q)) = _
  rw [V_wT m c]
  refine transpose_apply [1, 0] _ transposes_S128x1000_S1000x128_1_0 _ _ (fun b => ?_)
  match b with
  | ⟨0, _⟩ => show 200 * (t.val % 5) + k.val = win0_1.index t (0 : Fin 2) * 200 + 1 * k.val; rw [e0]; omega
  | ⟨1, _⟩ => show q.val = win0_1.index t (1 : Fin 2) * 128 + 1 * q.val; rw [e1]; omega

end Cert.KernelIdeal.Slabs

end
-- ==== Proof.SlabProduct.lean ====
/-
  The slab product read at one element, over the extended reals.

  The body's `tpu.matmul` contracts axis 0 of the `xᵀ` slab (200 × 8192) with axis 0 of the `Wᵀ` slab (200 × 128) into
  a zero accumulator: element (p, q) of the product is the sum over the 200 slab rows k of `xᵀ[k, p] · Wᵀ[k, q]`. A later
  slab adds that to the element it found.
-/
import proofs.«168782_g50440095924883_cont_8to1_c_133_13_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.SlabProduct

open Cert.KernelIdeal Cert.KernelIdeal.Gen
open Idealize.ShloMosaic Idealize.ShloMosaic.ValueIdx Idealize.ShloMosaic.Pipeline
open scoped BigOperators

/-- The left operand's index at output (p, q) and slab row k: row k, -/
theorem lhs_row (j : S8192x128.Idx) (q : dot_S200x8192_S200x128_S8192x128_0_0_1_1_n_n.contr.Idx) : (dot_S200x8192_S200x128_S8192x128_0_0_1_1_n_n.lhsIdx j q 0).val = (q ⟨0, by decide⟩).val :=
  dot_S200x8192_S200x128_S8192x128_0_0_1_1_n_n.lhsIdx_val_of_single rfl j q
/-- column p; -/
theorem lhs_col (j : S8192x128.Idx) (q : dot_S200x8192_S200x128_S8192x128_0_0_1_1_n_n.contr.Idx) : (dot_S200x8192_S200x128_S8192x128_0_0_1_1_n_n.lhsIdx j q 1).val = (j 0).val := by
  unfold DotDims.lhsIdx
  rw [dif_neg (show ¬(1 : Fin S200x8192.rank) ∈ dot_S200x8192_S200x128_S8192x128_0_0_1_1_n_n.lhsBatch by decide), dif_pos (show (1 : Fin S200x8192.rank) ∈ dot_S200x8192_S200x128_S8192x128_0_0_1_1_n_n.lhsNonContracting by decide)]
  rfl
/-- the right operand's: row k, -/
theorem rhs_row (j : S8192x128.Idx) (q : dot_S200x8192_S200x128_S8192x128_0_0_1_1_n_n.contr.Idx) : (dot_S200x8192_S200x128_S8192x128_0_0_1_1_n_n.rhsIdx j q 0).val = (q ⟨0, by decide⟩).val :=
  dot_S200x8192_S200x128_S8192x128_0_0_1_1_n_n.rhsIdx_val_of_single rfl j q
/-- column q. -/
theorem rhs_col (j : S8192x128.Idx) (q : dot_S200x8192_S200x128_S8192x128_0_0_1_1_n_n.contr.Idx) : (dot_S200x8192_S200x128_S8192x128_0_0_1_1_n_n.rhsIdx j q 1).val = (j 1).val := by
  unfold DotDims.rhsIdx
  rw [dif_neg (show ¬(1 : Fin S200x128.rank) ∈ dot_S200x8192_S200x128_S8192x128_0_0_1_1_n_n.rhsBatch by decide), dif_pos (show (1 : Fin S200x128.rank) ∈ dot_S200x8192_S200x128_S8192x128_0_0_1_1_n_n.rhsNonContracting by decide)]
  rfl

/-- THE SLAB PRODUCT at (p, q): the sum over the slab's 200 rows. -/
theorem product_apply (x0 : Vec Ideal S200x8192 .f32) (x1 : Vec Ideal S200x128 .f32) (p : Fin 8192) (q : Fin 128) :
    k0_pay1 (F := Ideal) x0 x1 (ix2 p q) = ∑ k : Fin 200, x0 (ix2 k p) * x1 (ix2 k q) := by
  unfold k0_pay1
  simp only [shapeCast_self]
  refine (Ideal.matmul_constant_zero_apply dot_S200x8192_S200x128_S8192x128_0_0_1_1_n_n none x0 x1 (ix2 p q)).trans ?_
  rw [← Equiv.sum_comp (contrEquiv1 dot_S200x8192_S200x128_S8192x128_0_0_1_1_n_n 200 rfl rfl).symm]
  refine Finset.sum_congr rfl fun k _ => ?_
  have hk := contrEquiv1_symm_val dot_S200x8192_S200x128_S8192x128_0_0_1_1_n_n 200 rfl rfl k
  have el : dot_S200x8192_S200x128_S8192x128_0_0_1_1_n_n.lhsIdx (ix2 p q) ((contrEquiv1 dot_S200x8192_S200x128_S8192x128_0_0_1_1_n_n 200 rfl rfl).symm k) = ix2 k p := funext fun a => Fin.ext (by
    match a with
    | ⟨0, _⟩ => exact (lhs_row _ _).trans hk
    | ⟨1, _⟩ => exact lhs_col _ _)
  have er : dot_S200x8192_S200x128_S8192x128_0_0_1_1_n_n.rhsIdx (ix2 p q) ((contrEquiv1 dot_S200x8192_S200x128_S8192x128_0_0_1_1_n_n 200 rfl rfl).symm k) = ix2 k q := funext fun a => Fin.ext (by
    match a with
    | ⟨0, _⟩ => exact (rhs_row _ _).trans hk
    | ⟨1, _⟩ => exact rhs_col _ _)
  rw [el, er]

/-- A LATER SLAB's store at (p, q): the element found plus the slab product there. -/
theorem later_apply (x0 : Vec Ideal S200x8192 .f32) (x1 : Vec Ideal S200x128 .f32) (xo : Vec Ideal S8192x128 .f32)
    (p : Fin 8192) (q : Fin 128) :
    k0_pay2 (F := Ideal) x0 x1 xo (ix2 p q) = xo (ix2 p q) + k0_pay1 (F := Ideal) x0 x1 (ix2 p q) := by
  unfold k0_pay2
  simp only [shapeCast_self]
  rfl

end Cert.KernelIdeal.SlabProduct

end
-- ==== Proof.SlabSum.lean ====
/-
  The arithmetic of the K-slab accumulation, over the extended reals.

  `x` is 16384 × 1000, `W` is 128 × 1000, and the result is `y[b, n] = ∑ₖ x[b, k] · W[n, k]` over the 1000 columns.
  The kernel reaches it slab by slab: after the slabs 0 … j of 200 columns each it holds the partial sum over the first
  200·(j + 1) columns, and a partial sum extends by a slab because a sum over `K + K'` terms is the sum over the first
  `K` plus the sum over the next `K'` — associativity and nothing else, so no entry need be finite.
  Entries are read through total functions of natural-number coordinates (zero outside the array), which keeps every
  statement about slabs plain arithmetic on ℕ.
-/
import Idealize.ShloMosaic.PureOps.Ideal
import Idealize.ShloMosaic.Lib.ValueIdx

noncomputable section

namespace Cert.SlabSum

open Idealize.ShloMosaic Idealize.ShloMosaic.ValueIdx
open scoped BigOperators

/-- `x[b, k]`, zero outside the array. -/
def xAt (X : (⟨2, ![16384, 1000]⟩ : Shape).Idx → EReal) (b k : ℕ) : EReal :=
  if h : b < 16384 ∧ k < 1000 then X (ix2 ⟨b, h.1⟩ ⟨k, h.2⟩) else 0

/-- `W[n, k]`, zero outside the array. -/
def wAt (W : (⟨2, ![128, 1000]⟩ : Shape).Idx → EReal) (n k : ℕ) : EReal :=
  if h : n < 128 ∧ k < 1000 then W (ix2 ⟨n, h.1⟩ ⟨k, h.2⟩) else 0

theorem xAt_of_lt (X : (⟨2, ![16384, 1000]⟩ : Shape).Idx → EReal) {b k : ℕ} (hb : b < 16384) (hk : k < 1000) :
    xAt X b k = X (ix2 ⟨b, hb⟩ ⟨k, hk⟩) := dif_pos ⟨hb, hk⟩

theorem wAt_of_lt (W : (⟨2, ![128, 1000]⟩ : Shape).Idx → EReal) {n k : ℕ} (hn : n < 128) (hk : k < 1000) :
    wAt W n k = W (ix2 ⟨n, hn⟩ ⟨k, hk⟩) := dif_pos ⟨hn, hk⟩

/-- The partial result over the first `K` columns. -/
def partialDot (X : (⟨2, ![16384, 1000]⟩ : Shape).Idx → EReal) (W : (⟨2, ![128, 1000]⟩ : Shape).Idx → EReal) (b n K : ℕ) : EReal :=
  ∑ k ∈ Finset.range K, xAt X b k * wAt W n k

/-- Extending a partial result by the next `K'` columns. -/
theorem partialDot_add (X : (⟨2, ![16384, 1000]⟩ : Shape).Idx → EReal) (W : (⟨2, ![128, 1000]⟩ : Shape).Idx → EReal) (b n K K' : ℕ) :
    partialDot X W b n (K + K') = partialDot X W b n K + ∑ k ∈ Finset.range K', xAt X b (K + k) * wAt W n (K + k) :=
  Finset.sum_range_add _ _ _

/-- The first slab alone. -/
theorem partialDot_first (X : (⟨2, ![16384, 1000]⟩ : Shape).Idx → EReal) (W : (⟨2, ![128, 1000]⟩ : Shape).Idx → EReal) (b n K : ℕ) :
    partialDot X W b n K = ∑ k ∈ Finset.range K, xAt X b (0 + k) * wAt W n (0 + k) := by
  unfold partialDot; simp only [Nat.zero_add]

/-- THE RESULT: every entry the full sum over the 1000 columns. -/
def result (X : (⟨2, ![16384, 1000]⟩ : Shape).Idx → EReal) (W : (⟨2, ![128, 1000]⟩ : Shape).Idx → EReal) :
    (⟨2, ![16384, 128]⟩ : Shape).Idx → EReal :=
  fun i => partialDot X W (i 0).val (i 1).val 1000

/-- The result at (b, n) as a sum over the columns' own index type. -/
theorem result_apply (X : (⟨2, ![16384, 1000]⟩ : Shape).Idx → EReal) (W : (⟨2, ![128, 1000]⟩ : Shape).Idx → EReal)
    (b : Fin 16384) (n : Fin 128) :
    result X W (ix2 b n) = ∑ k : Fin 1000, X (ix2 b k) * W (ix2 n k) := by
  show partialDot X W b.val n.val 1000 = _
  unfold partialDot
  rw [Finset.sum_range]
  refine Finset.sum_congr rfl fun k _ => ?_
  rw [xAt_of_lt X b.isLt k.isLt, wAt_of_lt W n.isLt k.isLt]

end Cert.SlabSum

end
-- ==== Proof.SlabValue.lean ====
/-
  The kernel's value at the ideal instance: its result array ends holding the full sum.

  After the body at point `t` (half `t / 5`, slab `t % 5`) element (p, q) of the output's staging buffer is the partial
  result of row `8192·(t / 5) + p` against `W`'s row `q` over the first `200·(t % 5 + 1)` columns: at a first slab the
  slab product is the partial result over the first 200 columns; at a later slab the body adds the slab's product,
  the next 200 columns, to the partial result the point before left. The buffer is written back at the last slab,
  where the partial result is over all 1000 columns; the two halves' blocks tile the result array.
-/
import proofs.«168782_g50440095924883_cont_8to1_c_133_13_alg».proof.Proof.SlabBlocks
import proofs.«168782_g50440095924883_cont_8to1_c_133_13_alg».proof.Proof.SlabProduct
import proofs.«168782_g50440095924883_cont_8to1_c_133_13_alg».proof.Proof.SlabSum

noncomputable section

namespace Cert.KernelIdeal.Slabs

open Cert.KernelIdeal Cert.KernelIdeal.Gen Cert.KernelIdeal.SlabProduct Cert.SlabSum
open Idealize.ShloMosaic Idealize.ShloMosaic.TcCoe Idealize.SL.Sem Idealize.ShloMosaic.ValueIdx
open Idealize.ShloMosaic.Pipeline (Dat)
open scoped BigOperators

variable (m : (ℓ : Loc nD τ sig) → Buf (Elt Ideal) ℓ) (ρ : Dev nD → PrngReg)

/-- The first argument, `x`, on core `c`. -/
abbrev argX (c : Dev nD) : (⟨2, ![16384, 1000]⟩ : Shape).Idx → EReal := m ((c : Thread nD τ).loc main_arg0)
/-- The second argument, `W`, on core `c`. -/
abbrev argW (c : Dev nD) : (⟨2, ![128, 1000]⟩ : Shape).Idx → EReal := m ((c : Thread nD τ).loc main_arg1)

/-- THE SLAB PRODUCT at point `t`, element (p, q): the slab's 200 columns of the full sum. -/
theorem slab_apply (c : Dev nD) (t : Fin cfg0.N) (p : Fin 8192) (q : Fin 128) :
    k0_pay1 (F := Ideal) (iblk m c 0 t) (iblk m c 1 t) (ix2 p q)
      = ∑ k ∈ Finset.range 200, xAt (argX m c) (8192 * (t.val / 5) + p.val) (200 * (t.val % 5) + k)
          * wAt (argW m c) q.val (200 * (t.val % 5) + k) := by
  have hN : t.val < 10 := lt_of_lt_of_eq t.isLt (show cfg0.N = 10 from N_0)
  have hp : p.val < 8192 := p.isLt
  rw [product_apply, Finset.sum_range]
  refine Finset.sum_congr rfl fun k _ => ?_
  have hk : k.val < 200 := k.isLt
  rw [xblock_apply m c t k p (by omega) (by omega), wblock_apply m c t k q (by omega),
    xAt_of_lt (argX m c) (by omega) (by omega), wAt_of_lt (argW m c) q.isLt (by omega)]

/-- THE RUNNING CONTENTS: after point `n` the output's staging buffer holds the partial results over the first
    `200·(n % 5 + 1)` columns. -/
theorem acc_apply (c : Dev nD) : ∀ (n : ℕ) (hn : n < cfg0.N) (p : Fin 8192) (q : Fin 128),
    acc m c n hn (ix2 p q) = partialDot (argX m c) (argW m c) (8192 * (n / 5) + p.val) q.val (200 * (n % 5 + 1))
  | 0, hn, p, q => by
    rw [acc_first m c ⟨0, hn⟩ rfl, slab_apply]
    exact (partialDot_first _ _ _ _ _).symm
  | n + 1, hn, p, q => by
    by_cases h0 : (n + 1) % 5 = 0
    · rw [acc_first m c ⟨n + 1, hn⟩ h0, slab_apply]
      show ∑ k ∈ Finset.range 200, xAt (argX m c) (8192 * ((n + 1) / 5) + p.val) (200 * ((n + 1) % 5) + k)
          * wAt (argW m c) q.val (200 * ((n + 1) % 5) + k) = _
      rw [h0]
      exact (partialDot_first _ _ _ _ _).symm
    · rw [acc_later m c ⟨n + 1, hn⟩ h0, later_apply, slab_apply]
      show acc m c n _ (ix2 p q) + ∑ k ∈ Finset.range 200, xAt (argX m c) (8192 * ((n + 1) / 5) + p.val) (200 * ((n + 1) % 5) + k)
          * wAt (argW m c) q.val (200 * ((n + 1) % 5) + k) = _
      rw [acc_apply c n _ p q, show n / 5 = (n + 1) / 5 by omega, show 200 * (n % 5 + 1) = 200 * ((n + 1) % 5) by omega,
        ← partialDot_add, show 200 * ((n + 1) % 5) + 200 = 200 * ((n + 1) % 5 + 1) by omega]

/-- WHAT A WRITE-BACK WRITES is its block of the full sum: the write-back is at a last slab, where the partial
    results are over all 1000 columns. -/
theorem flushed_eq (c : Dev nD) (t : Fin cfg0.N) (hf : (cfg0.win 2).flush t = true) :
    (dats m 0 c).flushed 2 t = ((cfg0.win 2).blk t).view.read (Elt Ideal) (result (argX m c) (argW m c)) := by
  have h4 : t.val % 5 = 4 := (flush0_2 t).mp hf
  obtain ⟨-, -, -, -, e0, e1⟩ := block_indices t
  show (cfg0.win 2).cut (grid0.coords t) ((dats m 0 c).after 2 t) = _
  rw [after_o]
  funext j
  obtain ⟨p, q, rfl⟩ : ∃ (p : Fin 8192) (q : Fin 128), j = ix2 p q := ⟨j 0, j 1, eq_ix2 j⟩
  rw [View.read_apply]
  show acc m c t.val t.isLt (ix2 p q) = result (argX m c) (argW m c) (((cfg0.win 2).blk t).view.emb (ix2 p q))
  rw [acc_apply, h4]
  show partialDot _ _ (8192 * (t.val / 5) + p.val) q.val (200 * (4 + 1))
    = partialDot _ _ (win0_2.index t (0 : Fin 2) * 8192 + 1 * p.val) (win0_2.index t (1 : Fin 2) * 128 + 1 * q.val) 1000
  rw [e0, e1, show t.val / 5 * 8192 + 1 * p.val = 8192 * (t.val / 5) + p.val by omega, show 0 * 128 + 1 * q.val = q.val by omega]

/-- An index of the result array is in point `t`'s block iff each coordinate is in the block's range on its axis. -/
theorem mem_block (t : Fin cfg0.N) (i : S16384x128.Idx) :
    i ∈ ((cfg0.win 2).blk t).view.set ↔ ∀ a : Fin 2, win0_2.index t a * S8192x128.size a ≤ (i a).val ∧ (i a).val < win0_2.index t a * S8192x128.size a + S8192x128.size a := by
  show i ∈ ((View.whole main_v0).slice (win0_2.rect t)).set ↔ _
  rw [View.set_slice_whole, Rect.mem_set_unit]
  exact Iff.rfl

/-- Every index of the result array is in the block some last slab writes back: row `r` in half `r / 8192`'s. -/
theorem covered (i : S16384x128.Idx) : ∃ t : Fin cfg0.N, (cfg0.win 2).flush t = true ∧ i ∈ ((cfg0.win 2).blk t).view.set := by
  have hi0 : (i 0).val < 16384 := (i 0).isLt
  have hi1 : (i 1).val < 128 := (i 1).isLt
  have hN : cfg0.N = 10 := N_0
  let t : Fin cfg0.N := ⟨5 * ((i 0).val / 8192) + 4, by rw [hN]; omega⟩
  obtain ⟨-, -, -, -, e0, e1⟩ := block_indices t
  have ht : t.val = 5 * ((i 0).val / 8192) + 4 := rfl
  refine ⟨t, (flush0_2 t).mpr (by rw [ht]; omega), ?_⟩
  rw [mem_block]
  intro a
  match a with
  | ⟨0, _⟩ => show win0_2.index t (0 : Fin 2) * 8192 ≤ (i 0).val ∧ (i 0).val < win0_2.index t (0 : Fin 2) * 8192 + 8192; rw [e0, ht]; omega
  | ⟨1, _⟩ => show win0_2.index t (1 : Fin 2) * 128 ≤ (i 1).val ∧ (i 1).val < win0_2.index t (1 : Fin 2) * 128 + 128; rw [e1]; omega

/-- THE RESULT ARRAY after the run: the full sum. -/
theorem final (c : Dev nD) : (dats m 0 c).arrAt 2 cfg0.N = result (argX m c) (argW m c) :=
  (dats m 0 c).arrAt_eq_of_cover 2 (result (argX m c) (argW m c)) (flushed_eq m c) covered

/-- The run, read: the result array at the full sum of the argument arrays, the arguments unchanged. -/
theorem run : θ_run defs (onTc (τ := τ) (main (F := Ideal))) ⟨m, fun _ => 0, ρ⟩ fun r => ∀ c : Dev nD,
      r.2.mem ((c : Thread nD τ).loc main_v0) = result (argX m c) (argW m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨((h c).1 2).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c)⟩)
    (run_main m ρ)

end Cert.KernelIdeal.Slabs

end
-- ==== Proof.WholeDot.lean ====
/-
  The reference's result, index by index: `jnp.dot(x, W.T)` on the host transposes `W` and contracts `x`'s columns with
  the transpose's rows, so element (b, n) is `∑ₖ x[b, k] · W[n, k]` over the 1000 columns — the full sum `SlabSum.result`.
-/
import proofs.«168782_g50440095924883_cont_8to1_c_133_13_alg».proof.Proof.Gen.ReferenceIdeal.Read
import proofs.«168782_g50440095924883_cont_8to1_c_133_13_alg».proof.Proof.SlabSum

noncomputable section

namespace Cert.ReferenceIdeal.WholeDot

open Cert.ReferenceIdeal Cert.ReferenceIdeal.Read
open Idealize.ShloMosaic Idealize.ShloMosaic.ValueIdx
open scoped BigOperators

/-- The left operand's index at output (b, n) and column k is (b, k); -/
theorem lidx_eq (b : Fin 16384) (n : Fin 128) (k : Fin 1000) : lidx_main_v1 (ix2 b n) k = ix2 b k :=
  funext fun a => Fin.ext (by match a with | ⟨0, _⟩ => rfl | ⟨1, _⟩ => rfl)

/-- the transposed right operand's is (k, n), which the transpose reads at (n, k). -/
theorem ridx_eq (b : Fin 16384) (n : Fin 128) (k : Fin 1000) : idx_main_v0 (ridx_main_v1 (ix2 b n) k) = ix2 n k :=
  funext fun a => Fin.ext (by match a with | ⟨0, _⟩ => rfl | ⟨1, _⟩ => rfl)

/-- THE REFERENCE IS THE FULL SUM, at the ideal instance. -/
theorem reference_eq (X : (⟨S16384x1000, .f32⟩ : BufTy).Contents (Elt Ideal)) (W : (⟨S128x1000, .f32⟩ : BufTy).Contents (Elt Ideal)) :
    val_main_v1 (F := Ideal) X W = Cert.SlabSum.result X W := by
  funext i
  obtain ⟨b, n, rfl⟩ : ∃ (b : Fin 16384) (n : Fin 128), i = ix2 b n := ⟨i 0, i 1, eq_ix2 i⟩
  rw [val_main_v1_apply, Cert.SlabSum.result_apply]
  refine Finset.sum_congr rfl fun k _ => ?_
  rw [val_main_v0_apply, lidx_eq, ridx_eq]

end Cert.ReferenceIdeal.WholeDot

end
-- ==== Proof.lean ====
/-
  `y = x · Wᵀ` computed slab by slab over the contracted axis, against `jnp.dot(x, W.T)`.

  The kernel walks a (2, 5) grid: for each half of the 16384 batch rows it takes the 1000 contracted columns in five
  slabs of 200, multiplies the slab of `xᵀ` with the slab of `Wᵀ`, stores the product at the first slab and adds it to
  the output block at each later one, and writes the block back after the fifth. The reference is one whole
  contraction over the 1000 columns. Over the extended reals the two agree entry by entry: a sum over 1000 terms is the
  sum of its five consecutive runs of 200, which is associativity of addition alone — no entry need be finite, so the
  precondition is never opened.

  The frames: each kernel program's body is run once for a first slab and once for a later slab, the output block's
  running contents carried from point to point (KernelRuns / KernelPoints and KernelIdealRuns / KernelIdealPoints);
  the reference's frame is its run with the result dropped. The ideal pass rewrote nothing, so `preserves` is trivial.
  The value: the slab product at one element (SlabProduct), the windows' blocks as entries of `x` and `W`
  (SlabBlocks), the running contents as partial sums and the blocks tiling the result (SlabValue, over SlabSum), and
  the reference as the full sum (WholeDot).
-/
import proofs.«168782_g50440095924883_cont_8to1_c_133_13_alg».proof.Defs
import proofs.«168782_g50440095924883_cont_8to1_c_133_13_alg».proof.Proof.Gen.Kernel
import proofs.«168782_g50440095924883_cont_8to1_c_133_13_alg».proof.Proof.Gen.KernelIdeal
import proofs.«168782_g50440095924883_cont_8to1_c_133_13_alg».proof.Proof.Gen.ReferenceIdeal
import proofs.«168782_g50440095924883_cont_8to1_c_133_13_alg».proof.Proof.Gen.Pre_finite_inputs
import proofs.«168782_g50440095924883_cont_8to1_c_133_13_alg».proof.Proof.Gen.ReferenceIdeal.Run
import proofs.«168782_g50440095924883_cont_8to1_c_133_13_alg».proof.Proof.Gen.ReferenceIdeal.Read
import proofs.«168782_g50440095924883_cont_8to1_c_133_13_alg».proof.Proof.KernelPoints
import proofs.«168782_g50440095924883_cont_8to1_c_133_13_alg».proof.Proof.SlabValue
import proofs.«168782_g50440095924883_cont_8to1_c_133_13_alg».proof.Proof.WholeDot
import Idealize.ShloMosaic.Adequacy
import Idealize.ShloMosaic.Init

noncomputable section

namespace Cert.Proof

open Idealize.ShloMosaic Idealize.SL.Sem

theorem frame_kernel : Cert.frame_Kernel := fun m ρ _ => Cert.Kernel.Slabs.frame m ρ

theorem frame_kernelIdeal : Cert.frame_KernelIdeal := fun m ρ _ => Cert.KernelIdeal.Slabs.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the full sum `∑ₖ x[b, k] · W[n, k]` of arguments that agree. -/
theorem algebraic : Cert.algebraic_KernelIdeal_ReferenceIdeal := by
  intro m ρ m' ρ' _ hagree
  refine ⟨fun c => Cert.SlabSum.result (Cert.KernelIdeal.Slabs.argX m c) (Cert.KernelIdeal.Slabs.argW m c),
    Cert.KernelIdeal.Slabs.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v1_eq, Cert.ReferenceIdeal.WholeDot.reference_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
